-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S64 .f32) (main_arg6 : FVec F S64x10 .f32) (main_arg7 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg6
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x64 .f32) (main_arg3 : FVec F S64 .f32) (main_arg4 : FVec F S64x64 .f32) (main_arg5 : FVec F S64 .f32) (main_arg6 : FVec F S64x10 .f32) (main_arg7 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x10 : Shape := ⟨2, ![100000, 10]⟩
abbrev S5000x10 : Shape := ⟨2, ![5000, 10]⟩
abbrev S3200000x10 : Shape := ⟨2, ![3200000, 10]⟩
abbrev S1x10 : Shape := ⟨2, ![1, 10]⟩

abbrev nBuf : Space → Nat
  | .hbm => 201
  | .vmem => 15
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x64, .f32⟩
  | 5 => ⟨S64, .f32⟩
  | 6 => ⟨S64x10, .f32⟩
  | 7 => ⟨S10, .f32⟩
  | 8 => ⟨S1x3200000, .i32⟩
  | 9 => ⟨S3200000, .i32⟩
  | 10 => ⟨S1x3200000, .i32⟩
  | 11 => ⟨S3200000, .i32⟩
  | 12 => ⟨S100000x64, .f32⟩
  | 13 => ⟨S_, .f32⟩
  | 14 => ⟨S100000, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S_, .f32⟩
  | 24 => ⟨S3200000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S3200000, .f32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S3200000x64, .f32⟩
  | 58 => ⟨S3200000x1, .f32⟩
  | 59 => ⟨S3200000x64, .f32⟩
  | 60 => ⟨S3200000x64, .f32⟩
  | 61 => ⟨S_, .f32⟩
  | 62 => ⟨S100000x64, .f32⟩
  | 63 => ⟨S3200000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .f32⟩
  | 78 => ⟨S100000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S_, .f32⟩
  | 88 => ⟨S3200000, .f32⟩
  | 89 => ⟨S100000, .f32⟩
  | 90 => ⟨S_, .f32⟩
  | 91 => ⟨S100000, .f32⟩
  | 92 => ⟨S100000, .f32⟩
  | 93 => ⟨S100000, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000, .f32⟩
  | 112 => ⟨S3200000, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x64, .f32⟩
  | 122 => ⟨S3200000x1, .f32⟩
  | 123 => ⟨S3200000x64, .f32⟩
  | 124 => ⟨S3200000x64, .f32⟩
  | 125 => ⟨S_, .f32⟩
  | 126 => ⟨S100000x64, .f32⟩
  | 127 => ⟨S3200000x1, .i32⟩
  | _ => ⟨S100000x256, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x10, .f32⟩
  | 13 => ⟨S_, .f32⟩
  | 14 => ⟨S100000, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S_, .f32⟩
  | 24 => ⟨S3200000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S3200000, .f32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S3200000x10, .f32⟩
  | 58 => ⟨S3200000x1, .f32⟩
  | 59 => ⟨S3200000x10, .f32⟩
  | 60 => ⟨S3200000x10, .f32⟩
  | 61 => ⟨S_, .f32⟩
  | 62 => ⟨S100000x10, .f32⟩
  | 63 => ⟨S3200000x1, .i32⟩
  | 64 => ⟨S100000x10, .f32⟩
  | 65 => ⟨S100000, .f32⟩
  | 66 => ⟨S100000x1, .f32⟩
  | 67 => ⟨S100000x10, .f32⟩
  | 68 => ⟨S100000x10, .f32⟩
  | 69 => ⟨S100000x10, .f32⟩
  | 70 => ⟨S1x10, .f32⟩
  | 71 => ⟨S100000x10, .f32⟩
  | 72 => ⟨S100000x10, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x10, .f32⟩
  | .local _ .vmem, ⟨13, _⟩ => ⟨S5000x10, .f32⟩
  | .local _ .vmem, ⟨14, _⟩ => ⟨S5000x10, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call1_cst : Ref sig .tc := ⟨.hbm, 137, rfl⟩
abbrev main_call1_v0 : Ref sig .tc := ⟨.hbm, 138, rfl⟩
abbrev main_v103 : Ref sig .tc := ⟨.hbm, 139, rfl⟩
abbrev main_v104 : Ref sig .tc := ⟨.hbm, 140, rfl⟩
abbrev main_cst_22 : Ref sig .tc := ⟨.hbm, 141, rfl⟩
abbrev main_v105 : Ref sig .tc := ⟨.hbm, 142, rfl⟩
abbrev main_c_23 : Ref sig .tc := ⟨.hbm, 143, rfl⟩
abbrev main_v106 : Ref sig .tc := ⟨.hbm, 144, rfl⟩
abbrev main_v107 : Ref sig .tc := ⟨.hbm, 145, rfl⟩
abbrev main_c_24 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_25 : Ref sig .tc := ⟨.hbm, 151, rfl⟩
abbrev main_v112 : Ref sig .tc := ⟨.hbm, 152, rfl⟩
abbrev main_v113 : Ref sig .tc := ⟨.hbm, 153, rfl⟩
abbrev main_cst_26 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_27 : Ref sig .tc := ⟨.hbm, 158, rfl⟩
abbrev main_v117 : Ref sig .tc := ⟨.hbm, 159, rfl⟩
abbrev main_v118 : Ref sig .tc := ⟨.hbm, 160, rfl⟩
abbrev main_c_28 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_29 : Ref sig .tc := ⟨.hbm, 167, rfl⟩
abbrev main_v124 : Ref sig .tc := ⟨.hbm, 168, rfl⟩
abbrev main_v125 : Ref sig .tc := ⟨.hbm, 169, rfl⟩
abbrev main_c_30 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_31 : Ref sig .tc := ⟨.hbm, 177, rfl⟩
abbrev main_v132 : Ref sig .tc := ⟨.hbm, 178, rfl⟩
abbrev main_v133 : Ref sig .tc := ⟨.hbm, 179, rfl⟩
abbrev main_c_32 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_33 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x10_S64x10_0_0 : ∀ a, (![0, 0] : Fin 2 → Nat) a + S64x10.size a ≤ S64x10.size a
  h_S64x10 : 0 < S64x10.numel
  inb_S5000x10_S5000x10_0_0 : ∀ a, (![0, 0] : Fin 2 → Nat) a + S5000x10.size a ≤ S5000x10.size a
  h_S5000x10 : 0 < S5000x10.numel
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S5000x256_S256x64_S5000x64_1_0_0_1_n_n_wf : DotDims.WF S5000x256 S256x64 S5000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x10_S5000x10_1_0_0_1_n_n_wf : DotDims.WF S5000x64 S64x10 S5000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S100000x10.size a
  hwx2_2 : ∀ i : grid2.Coords, EltTy.bits .f32 = 32 ∨ (Rect.block (s := S100000x10) S5000x10.size (cc2_transform_2 i) (hinb2_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v103) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v104) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x10 : Shape := ⟨2, ![100000, 10]⟩
abbrev S3200000x10 : Shape := ⟨2, ![3200000, 10]⟩
abbrev S1x10 : Shape := ⟨2, ![1, 10]⟩

abbrev nBuf : Space → Nat
  | .hbm => 201
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x64, .f32⟩
  | 5 => ⟨S64, .f32⟩
  | 6 => ⟨S64x10, .f32⟩
  | 7 => ⟨S10, .f32⟩
  | 8 => ⟨S1x3200000, .i32⟩
  | 9 => ⟨S3200000, .i32⟩
  | 10 => ⟨S1x3200000, .i32⟩
  | 11 => ⟨S3200000, .i32⟩
  | 12 => ⟨S100000x64, .f32⟩
  | 13 => ⟨S_, .f32⟩
  | 14 => ⟨S100000, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S_, .f32⟩
  | 24 => ⟨S3200000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S3200000, .f32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S3200000x64, .f32⟩
  | 58 => ⟨S3200000x1, .f32⟩
  | 59 => ⟨S3200000x64, .f32⟩
  | 60 => ⟨S3200000x64, .f32⟩
  | 61 => ⟨S_, .f32⟩
  | 62 => ⟨S100000x64, .f32⟩
  | 63 => ⟨S3200000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .f32⟩
  | 78 => ⟨S100000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S_, .f32⟩
  | 88 => ⟨S3200000, .f32⟩
  | 89 => ⟨S100000, .f32⟩
  | 90 => ⟨S_, .f32⟩
  | 91 => ⟨S100000, .f32⟩
  | 92 => ⟨S100000, .f32⟩
  | 93 => ⟨S100000, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000, .f32⟩
  | 112 => ⟨S3200000, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x64, .f32⟩
  | 122 => ⟨S3200000x1, .f32⟩
  | 123 => ⟨S3200000x64, .f32⟩
  | 124 => ⟨S3200000x64, .f32⟩
  | 125 => ⟨S_, .f32⟩
  | 126 => ⟨S100000x64, .f32⟩
  | 127 => ⟨S3200000x1, .i32⟩
  | _ => ⟨S100000x256, .f32⟩

abbrev hbmTy0_1 (i : Nat) : BufTy := match i % 128 with
  | 0 => ⟨S100000x64, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x10, .f32⟩
  | 13 => ⟨S_, .f32⟩
  | 14 => ⟨S100000, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S_, .f32⟩
  | 24 => ⟨S3200000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S3200000, .f32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S3200000x10, .f32⟩
  | 58 => ⟨S3200000x1, .f32⟩
  | 59 => ⟨S3200000x10, .f32⟩
  | 60 => ⟨S3200000x10, .f32⟩
  | 61 => ⟨S_, .f32⟩
  | 62 => ⟨S100000x10, .f32⟩
  | 63 => ⟨S3200000x1, .i32⟩
  | 64 => ⟨S100000x10, .f32⟩
  | 65 => ⟨S100000, .f32⟩
  | 66 => ⟨S100000x1, .f32⟩
  | 67 => ⟨S100000x10, .f32⟩
  | 68 => ⟨S100000x10, .f32⟩
  | 69 => ⟨S100000x10, .f32⟩
  | 70 => ⟨S1x10, .f32⟩
  | 71 => ⟨S100000x10, .f32⟩
  | 72 => ⟨S100000x10, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_call1_cst : Ref sig .tc := ⟨.hbm, 137, rfl⟩
abbrev main_call1_v0 : Ref sig .tc := ⟨.hbm, 138, rfl⟩
abbrev main_v103 : Ref sig .tc := ⟨.hbm, 139, rfl⟩
abbrev main_v104 : Ref sig .tc := ⟨.hbm, 140, rfl⟩
abbrev main_cst_22 : Ref sig .tc := ⟨.hbm, 141, rfl⟩
abbrev main_v105 : Ref sig .tc := ⟨.hbm, 142, rfl⟩
abbrev main_c_23 : Ref sig .tc := ⟨.hbm, 143, rfl⟩
abbrev main_v106 : Ref sig .tc := ⟨.hbm, 144, rfl⟩
abbrev main_v107 : Ref sig .tc := ⟨.hbm, 145, rfl⟩
abbrev main_c_24 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_25 : Ref sig .tc := ⟨.hbm, 151, rfl⟩
abbrev main_v112 : Ref sig .tc := ⟨.hbm, 152, rfl⟩
abbrev main_v113 : Ref sig .tc := ⟨.hbm, 153, rfl⟩
abbrev main_cst_26 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_27 : Ref sig .tc := ⟨.hbm, 158, rfl⟩
abbrev main_v117 : Ref sig .tc := ⟨.hbm, 159, rfl⟩
abbrev main_v118 : Ref sig .tc := ⟨.hbm, 160, rfl⟩
abbrev main_c_28 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_29 : Ref sig .tc := ⟨.hbm, 167, rfl⟩
abbrev main_v124 : Ref sig .tc := ⟨.hbm, 168, rfl⟩
abbrev main_v125 : Ref sig .tc := ⟨.hbm, 169, rfl⟩
abbrev main_c_30 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_31 : Ref sig .tc := ⟨.hbm, 177, rfl⟩
abbrev main_v132 : Ref sig .tc := ⟨.hbm, 178, rfl⟩
abbrev main_v133 : Ref sig .tc := ⟨.hbm, 179, rfl⟩
abbrev main_c_32 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_33 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x256_S256x64_S100000x64_1_0_0_1_n_n_wf : DotDims.WF S100000x256 S256x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

class Facts : Prop extends Facts₀ where

variable [Facts]
-- ==== Proof.KernelRun.lean ====
/-
  The idealized kernel's run with its result array NAMED.

  The program is three row-tiled matrix products among stretches of host operations.  Its buffers' contents at
  every boundary are a fold from the launch memory (host stretches applied as pure functions, each product's
  arrays replaced by what its write-backs leave); the last boundary's contents are `W9`.  Every weakly fair
  execution terminates, without a fault, in a state whose result buffer holds `W9` at the result's reference
  and whose argument arrays are as launched.
-/
import proofs.«102019_j49237505081833_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents and the arguments as launched. -/
theorem run_named : θ_run defs (onTc (τ := τ) (main (F := F))) ⟨m, fun _ => 0, ρ⟩ (fun r => ∀ c : Dev nD,
      r.2.mem ((c.tc : Thread nD τ).loc main_v152) = W9 m ρ c (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v152 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.HostKeep.lean ====
/-
  Buffers the host stretches leave alone.

  The two rows of the edge list (the source and the destination node of every edge) are cut out once, before
  the first matrix product, and read by every later stretch; the weights and biases are read where their layer
  needs them.  No host operation between writes any of them, so each is carried unchanged through every
  stretch it has to cross.
-/
import proofs.«102019_j49237505081833_1_alg».proof.Proof.Gen.KernelIdeal.Launch
import Idealize.ShloMosaic.Lib.StableHlo.Run

set_option maxRecDepth 16384

noncomputable section

namespace Cert.KernelIdeal.HostKeep

open Idealize.ShloMosaic Idealize.ShloMosaic.TcCoe Idealize.SL.Sem
open Cert.KernelIdeal Cert.KernelIdeal.Gen

variable {F : FTy → Type} [FloatOps F]

/-- Cutting the edge list's two rows out writes no argument array. -/
theorem keep0 (W : Valuation τ sig (Elt F)) (b : Ref sig .tc)
    (hb : b = main_arg0 ∨ b = main_arg2 ∨ b = main_arg3 ∨ b = main_arg4 ∨ b = main_arg5 ∨ b = main_arg6 ∨ b = main_arg7) :
    StableHlo.after (hostOps0 (F := F)) W (Proc.devRef .tc b) = W (Proc.devRef .tc b) := by
  rcases hb with rfl | rfl | rfl | rfl | rfl | rfl | rfl <;>
  exact StableHlo.after_of_forall_not_mem _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The first layer's aggregation writes neither edge row nor a later layer's weights or bias. -/
theorem keep1 (W : Valuation τ sig (Elt F)) (b : Ref sig .tc)
    (hb : b = main_v1 ∨ b = main_v3 ∨ b = main_arg4 ∨ b = main_arg5 ∨ b = main_arg6 ∨ b = main_arg7) :
    StableHlo.after (hostOps1 (F := F)) W (Proc.devRef .tc b) = W (Proc.devRef .tc b) := by
  rcases hb with rfl | rfl | rfl | rfl | rfl | rfl <;>
  exact StableHlo.after_of_forall_not_mem _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The first rectifier writes neither edge row nor a later layer's weights or bias. -/
theorem keep1_1 (W : Valuation τ sig (Elt F)) (b : Ref sig .tc)
    (hb : b = main_v1 ∨ b = main_v3 ∨ b = main_arg4 ∨ b = main_arg5 ∨ b = main_arg6 ∨ b = main_arg7) :
    StableHlo.after (hostOps1_1 (F := F)) W (Proc.devRef .tc b) = W (Proc.devRef .tc b) := by
  rcases hb with rfl | rfl | rfl | rfl | rfl | rfl <;>
  exact StableHlo.after_of_forall_not_mem _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second layer's aggregation writes neither edge row nor the last layer's weights or bias. -/
theorem keep2 (W : Valuation τ sig (Elt F)) (b : Ref sig .tc)
    (hb : b = main_v1 ∨ b = main_v3 ∨ b = main_arg6 ∨ b = main_arg7) :
    StableHlo.after (hostOps2 (F := F)) W (Proc.devRef .tc b) = W (Proc.devRef .tc b) := by
  rcases hb with rfl | rfl | rfl | rfl <;>
  exact StableHlo.after_of_forall_not_mem _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The second rectifier writes neither edge row nor the last layer's weights or bias. -/
theorem keep2_1 (W : Valuation τ sig (Elt F)) (b : Ref sig .tc)
    (hb : b = main_v1 ∨ b = main_v3 ∨ b = main_arg6 ∨ b = main_arg7) :
    StableHlo.after (hostOps2_1 (F := F)) W (Proc.devRef .tc b) = W (Proc.devRef .tc b) := by
  rcases hb with rfl | rfl | rfl | rfl <;>
  exact StableHlo.after_of_forall_not_mem _ _ (List.forall_iff_forall_mem.mp (by
    simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.HostKeep

end
-- ==== Proof.Stretch0.lean ====
/-
  The edge list's two rows.

  Before the first matrix product the kernel's host side cuts row 0 (the source node of every edge) and row 1
  (the destination node) out of the [2, E] edge list and drops the unit axis of each.  The reference does the
  same two cuts: read as pure functions of the edge list the two programs' rows are the same terms.
-/
import proofs.«102019_j49237505081833_1_alg».proof.Proof.Gen.KernelIdeal.Launch
import proofs.«102019_j49237505081833_1_alg».proof.Proof.Gen.ReferenceIdeal.Read
import Idealize.ShloMosaic.Lib.StableHlo.Run

set_option maxRecDepth 16384

noncomputable section

namespace Cert.KernelIdeal.Stretch0

open Idealize.ShloMosaic Idealize.ShloMosaic.TcCoe Idealize.SL.Sem Idealize.ShloMosaic.StableHlo
open Cert.KernelIdeal Cert.KernelIdeal.Gen

variable (W : Valuation τ sig (Elt Ideal))

/-- The source row, from any contents whose edge list is `x1`. -/
theorem source_row (x1 : (⟨Cert.ReferenceIdeal.S2x3200000, .i32⟩ : BufTy).Contents (Elt Ideal))
    (h : W (Proc.devRef .tc main_arg1) = x1) :
    StableHlo.after hostOps0 W (Proc.devRef .tc main_v1) = Cert.ReferenceIdeal.Read.val_main_v1 (F := Ideal) x1 := by
  after_results
  rw [h]
  rfl

/-- The destination row, from any contents whose edge list is `x1`. -/
theorem destination_row (x1 : (⟨Cert.ReferenceIdeal.S2x3200000, .i32⟩ : BufTy).Contents (Elt Ideal))
    (h : W (Proc.devRef .tc main_arg1) = x1) :
    StableHlo.after hostOps0 W (Proc.devRef .tc main_v3) = Cert.ReferenceIdeal.Read.val_main_v3 (F := Ideal) x1 := by
  after_results
  rw [h]
  rfl

end Cert.KernelIdeal.Stretch0

end
-- ==== Proof.Stretch1.lean ====
/-
  Layer 1's host side: degree normalisation, neighbour aggregation, self loop, bias, rectifier.

  Between two matrix products the kernel's host side computes, from the product h, the two edge rows and the
  bias b: the in-degree of every node (a scatter-add of ones over the destination row, plus one), its inverse
  square root, the edge weights (the inverse square roots gathered at both ends and multiplied), the
  weighted sum of the neighbours' rows of h (gather at the source row, scale, scatter-add at the destination
  row), the node's own row scaled by the squared inverse square root, and the bias; then the maximum with zero.
  The reference applies the very same operations to its own product, so once the two products, the two edge
  rows and the bias agree, the two results are one term: nothing of this chain is opened.
-/
import proofs.«102019_j49237505081833_1_alg».proof.Proof.Gen.KernelIdeal.Launch
import proofs.«102019_j49237505081833_1_alg».proof.Proof.Gen.ReferenceIdeal.Read
import Idealize.ShloMosaic.Lib.StableHlo.Run

set_option maxRecDepth 16384

noncomputable section

namespace Cert.KernelIdeal.Stretch1

open Idealize.ShloMosaic Idealize.ShloMosaic.TcCoe Idealize.SL.Sem Idealize.ShloMosaic.StableHlo
open Cert.KernelIdeal Cert.KernelIdeal.Gen

variable (W : Valuation τ sig (Elt Ideal))

/-- The layer's aggregation and bias from any contents that hold the product, the two edge rows and the bias. -/
theorem layer (x0 : (⟨Cert.ReferenceIdeal.S100000x256, .f32⟩ : BufTy).Contents (Elt Ideal)) (x1 : (⟨Cert.ReferenceIdeal.S2x3200000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal))
    (hprod : W (Proc.devRef .tc main_v4) = Cert.ReferenceIdeal.Read.val_main_v4 (F := Ideal) x0 x2)
    (hsrc : W (Proc.devRef .tc main_v1) = Cert.ReferenceIdeal.Read.val_main_v1 (F := Ideal) x1)
    (hdst : W (Proc.devRef .tc main_v3) = Cert.ReferenceIdeal.Read.val_main_v3 (F := Ideal) x1)
    (hbias : W (Proc.devRef .tc main_arg3) = x3) :
    StableHlo.after hostOps1 W (Proc.devRef .tc main_v52) = Cert.ReferenceIdeal.Read.val_main_v52 (F := Ideal) x0 x1 x2 x3 := by
  after_results_simp
  rw [hprod, hsrc, hdst, hbias]
  rfl

/-- The rectifier's three operations, whatever the sum's buffer holds: the maximum of the sum with an array of zeros. -/
theorem rectifier_step :
    StableHlo.after hostOps1_1 W (Proc.devRef .tc main_v53)
      = maximumf (F := Ideal) (s := S100000x64) (φ := .f32) (W (Proc.devRef .tc main_v52))
          (broadcastInDim S100000x64 ![] bcast_S_S100000x64 (constant (F := Ideal) S_ .f32 0x00000000#32)) := by
  after_results_simp
  rfl

/-- The rectifier from any contents that hold the layer's sum. -/
theorem rectified (x0 : (⟨Cert.ReferenceIdeal.S100000x256, .f32⟩ : BufTy).Contents (Elt Ideal)) (x1 : (⟨Cert.ReferenceIdeal.S2x3200000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal))
    (hsum : W (Proc.devRef .tc main_v52) = Cert.ReferenceIdeal.Read.val_main_v52 (F := Ideal) x0 x1 x2 x3) :
    StableHlo.after hostOps1_1 W (Proc.devRef .tc main_v53) = Cert.ReferenceIdeal.Read.val_main_v53 (F := Ideal) x0 x1 x2 x3 := by
  rw [rectifier_step, hsum]
  rfl

end Cert.KernelIdeal.Stretch1

end
-- ==== Proof.Stretch2.lean ====
/-
  Layer 2's host side: degree normalisation, neighbour aggregation, self loop, bias, rectifier.

  Between two matrix products the kernel's host side computes, from the product h, the two edge rows and the
  bias b: the in-degree of every node (a scatter-add of ones over the destination row, plus one), its inverse
  square root, the edge weights (the inverse square roots gathered at both ends and multiplied), the
  weighted sum of the neighbours' rows of h (gather at the source row, scale, scatter-add at the destination
  row), the node's own row scaled by the squared inverse square root, and the bias; then the maximum with zero.
  The reference applies the very same operations to its own product, so once the two products, the two edge
  rows and the bias agree, the two results are one term: nothing of this chain is opened.
-/
import proofs.«102019_j49237505081833_1_alg».proof.Proof.Gen.KernelIdeal.Launch
import proofs.«102019_j49237505081833_1_alg».proof.Proof.Gen.ReferenceIdeal.Read
import Idealize.ShloMosaic.Lib.StableHlo.Run

set_option maxRecDepth 16384

noncomputable section

namespace Cert.KernelIdeal.Stretch2

open Idealize.ShloMosaic Idealize.ShloMosaic.TcCoe Idealize.SL.Sem Idealize.ShloMosaic.StableHlo
open Cert.KernelIdeal Cert.KernelIdeal.Gen

variable (W : Valuation τ sig (Elt Ideal))

/-- The layer's aggregation and bias from any contents that hold the product, the two edge rows and the bias. -/
theorem layer (x0 : (⟨Cert.ReferenceIdeal.S100000x256, .f32⟩ : BufTy).Contents (Elt Ideal)) (x1 : (⟨Cert.ReferenceIdeal.S2x3200000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal))
    (hprod : W (Proc.devRef .tc main_v54) = Cert.ReferenceIdeal.Read.val_main_v54 (F := Ideal) x0 x1 x2 x3 x4)
    (hsrc : W (Proc.devRef .tc main_v1) = Cert.ReferenceIdeal.Read.val_main_v1 (F := Ideal) x1)
    (hdst : W (Proc.devRef .tc main_v3) = Cert.ReferenceIdeal.Read.val_main_v3 (F := Ideal) x1)
    (hbias : W (Proc.devRef .tc main_arg5) = x5) :
    StableHlo.after hostOps2 W (Proc.devRef .tc main_v102) = Cert.ReferenceIdeal.Read.val_main_v102 (F := Ideal) x0 x1 x2 x3 x4 x5 := by
  after_results_simp
  rw [hprod, hsrc, hdst, hbias]
  rfl

/-- The rectifier's three operations, whatever the sum's buffer holds: the maximum of the sum with an array of zeros. -/
theorem rectifier_step :
    StableHlo.after hostOps2_1 W (Proc.devRef .tc main_v103)
      = maximumf (F := Ideal) (s := S100000x64) (φ := .f32) (W (Proc.devRef .tc main_v102))
          (broadcastInDim S100000x64 ![] bcast_S_S100000x64 (constant (F := Ideal) S_ .f32 0x00000000#32)) := by
  after_results_simp
  rfl

/-- The rectifier from any contents that hold the layer's sum. -/
theorem rectified (x0 : (⟨Cert.ReferenceIdeal.S100000x256, .f32⟩ : BufTy).Contents (Elt Ideal)) (x1 : (⟨Cert.ReferenceIdeal.S2x3200000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal))
    (hsum : W (Proc.devRef .tc main_v102) = Cert.ReferenceIdeal.Read.val_main_v102 (F := Ideal) x0 x1 x2 x3 x4 x5) :
    StableHlo.after hostOps2_1 W (Proc.devRef .tc main_v103) = Cert.ReferenceIdeal.Read.val_main_v103 (F := Ideal) x0 x1 x2 x3 x4 x5 := by
  rw [rectifier_step, hsum]
  rfl

end Cert.KernelIdeal.Stretch2

end
-- ==== Proof.Stretch3.lean ====
/-
  Layer 3's host side: degree normalisation, neighbour aggregation, self loop, bias.

  Between two matrix products the kernel's host side computes, from the product h, the two edge rows and the
  bias b: the in-degree of every node (a scatter-add of ones over the destination row, plus one), its inverse
  square root, the edge weights (the inverse square roots gathered at both ends and multiplied), the
  weighted sum of the neighbours' rows of h (gather at the source row, scale, scatter-add at the destination
  row), the node's own row scaled by the squared inverse square root, and the bias.
  The reference applies the very same operations to its own product, so once the two products, the two edge
  rows and the bias agree, the two results are one term: nothing of this chain is opened.
-/
import proofs.«102019_j49237505081833_1_alg».proof.Proof.Gen.KernelIdeal.Launch
import proofs.«102019_j49237505081833_1_alg».proof.Proof.Gen.ReferenceIdeal.Read
import Idealize.ShloMosaic.Lib.StableHlo.Run

set_option maxRecDepth 16384

noncomputable section

namespace Cert.KernelIdeal.Stretch3

open Idealize.ShloMosaic Idealize.ShloMosaic.TcCoe Idealize.SL.Sem Idealize.ShloMosaic.StableHlo
open Cert.KernelIdeal Cert.KernelIdeal.Gen

variable (W : Valuation τ sig (Elt Ideal))

/-- The layer's aggregation and bias from any contents that hold the product, the two edge rows and the bias. -/
theorem layer (x0 : (⟨Cert.ReferenceIdeal.S100000x256, .f32⟩ : BufTy).Contents (Elt Ideal)) (x1 : (⟨Cert.ReferenceIdeal.S2x3200000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x10, .f32⟩ : BufTy).Contents (Elt Ideal)) (x7 : (⟨Cert.ReferenceIdeal.S10, .f32⟩ : BufTy).Contents (Elt Ideal))
    (hprod : W (Proc.devRef .tc main_v104) = Cert.ReferenceIdeal.Read.val_main_v104 (F := Ideal) x0 x1 x2 x3 x4 x5 x6)
    (hsrc : W (Proc.devRef .tc main_v1) = Cert.ReferenceIdeal.Read.val_main_v1 (F := Ideal) x1)
    (hdst : W (Proc.devRef .tc main_v3) = Cert.ReferenceIdeal.Read.val_main_v3 (F := Ideal) x1)
    (hbias : W (Proc.devRef .tc main_arg7) = x7) :
    StableHlo.after hostOps3 W (Proc.devRef .tc main_v152) = Cert.ReferenceIdeal.Read.val_main_v152 (F := Ideal) x0 x1 x2 x3 x4 x5 x6 x7 := by
  after_results_simp
  rw [hprod, hsrc, hdst, hbias]
  rfl

end Cert.KernelIdeal.Stretch3

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Contraction.lean ====
/-
  The three kernel bodies' arithmetic, read at an index at the ideal instance.

  Each body loads a block of 5000 rows of the left operand and the whole right operand, rounds both to bf16 (a
  change of float format: the identity on the extended reals), and stores their matrix product accumulated
  from zero.  So the stored block's entry (p, q) is the sum over the contracted axis k of
  left[p, k] · right[k, q].
-/
import proofs.«102019_j49237505081833_1_alg».proof.Proof.Gen.KernelIdeal.Skeleton
import proofs.«102019_j49237505081833_1_alg».proof.Proof.LibSplitContraction
import Idealize.ShloMosaic.Lib.ValueIdx
import Idealize.ShloMosaic.Lib.Pipeline.Value
import Idealize.ShloMosaic.PureOps.Ideal.Laws

noncomputable section

namespace Cert.KernelIdeal.Contraction

open Idealize.ShloMosaic Idealize.ShloMosaic.ValueIdx Idealize.SL.Sem
open Cert.KernelIdeal Cert.KernelIdeal.Gen Cert.Lib.SplitContraction

/-! ## Product 0: [5000, 256] × [256, 64] -/

theorem lhs0_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs0_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs0_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs0_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The body's stored value at row `p`, column `q` of its block: the two loaded blocks, rounded on the way in (the
    identity on the extended reals), multiplied into the zero accumulator — the sum over the contracted axis of
    the left block's row `p` times the right block's column `q`. -/
theorem pay0_at (x0 : Vec Ideal S5000x256 .f32) (x1 : Vec Ideal S256x64 .f32) (p : Fin 5000) (q : Fin 64) :
    k0_pay1 (F := Ideal) x0 x1 (ix2 p q) = ∑ k : Fin 256, x0 (ix2 p k) * x1 (ix2 k q) := by
  unfold k0_pay1
  exact matmul_zero_at dot_S5000x256_S256x64_S5000x64_1_0_0_1_n_n rfl rfl lhs0_0 lhs0_1 rhs0_0 rhs0_1 none _ _ p q

/-! ## Product 1: [5000, 64] × [64, 64] -/

theorem lhs1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's stored value at row `p`, column `q` of its block: the two loaded blocks, rounded on the way in (the
    identity on the extended reals), multiplied into the zero accumulator — the sum over the contracted axis of
    the left block's row `p` times the right block's column `q`. -/
theorem pay1_at (x0 : Vec Ideal S5000x64 .f32) (x1 : Vec Ideal S64x64 .f32) (p : Fin 5000) (q : Fin 64) :
    k1_pay1 (F := Ideal) x0 x1 (ix2 p q) = ∑ k : Fin 64, x0 (ix2 p k) * x1 (ix2 k q) := by
  unfold k1_pay1
  rw [shapeCast_self]
  exact matmul_zero_at dot_S5000x64_S64x64_S5000x64_1_0_0_1_n_n rfl rfl lhs1_0 lhs1_1 rhs1_0 rhs1_1 none _ _ p q

/-! ## Product 2: [5000, 64] × [64, 10] -/

theorem lhs2_0 (i : S5000x10.Idx) (q : dot_S5000x64_S64x10_S5000x10_1_0_0_1_n_n.contr.Idx) :
    (dot_S5000x64_S64x10_S5000x10_1_0_0_1_n_n.lhsIdx i q 0).val = (i 0).val := by
  unfold DotDims.lhsIdx
  rw [dif_neg (show ¬(0 : Fin S5000x64.rank) ∈ dot_S5000x64_S64x10_S5000x10_1_0_0_1_n_n.lhsBatch by decide), dif_pos (show (0 : Fin S5000x64.rank) ∈ dot_S5000x64_S64x10_S5000x10_1_0_0_1_n_n.lhsNonContracting by decide)]
  rfl
theorem lhs2_1 (i : S5000x10.Idx) (q : dot_S5000x64_S64x10_S5000x10_1_0_0_1_n_n.contr.Idx) :
    (dot_S5000x64_S64x10_S5000x10_1_0_0_1_n_n.lhsIdx i q 1).val = (q ⟨0, by decide⟩).val :=
  dot_S5000x64_S64x10_S5000x10_1_0_0_1_n_n.lhsIdx_val_of_single rfl i q
theorem rhs2_0 (i : S5000x10.Idx) (q : dot_S5000x64_S64x10_S5000x10_1_0_0_1_n_n.contr.Idx) :
    (dot_S5000x64_S64x10_S5000x10_1_0_0_1_n_n.rhsIdx i q 0).val = (q ⟨0, by decide⟩).val :=
  dot_S5000x64_S64x10_S5000x10_1_0_0_1_n_n.rhsIdx_val_of_single rfl i q
theorem rhs2_1 (i : S5000x10.Idx) (q : dot_S5000x64_S64x10_S5000x10_1_0_0_1_n_n.contr.Idx) :
    (dot_S5000x64_S64x10_S5000x10_1_0_0_1_n_n.rhsIdx i q 1).val = (i 1).val := by
  unfold DotDims.rhsIdx
  rw [dif_neg (show ¬(1 : Fin S64x10.rank) ∈ dot_S5000x64_S64x10_S5000x10_1_0_0_1_n_n.rhsBatch by decide), dif_pos (show (1 : Fin S64x10.rank) ∈ dot_S5000x64_S64x10_S5000x10_1_0_0_1_n_n.rhsNonContracting by decide)]
  rfl

/-- The body's stored value at row `p`, column `q` of its block: the two loaded blocks, rounded on the way in (the
    identity on the extended reals), multiplied into the zero accumulator — the sum over the contracted axis of
    the left block's row `p` times the right block's column `q`. -/
theorem pay2_at (x0 : Vec Ideal S5000x64 .f32) (x1 : Vec Ideal S64x10 .f32) (p : Fin 5000) (q : Fin 10) :
    k2_pay1 (F := Ideal) x0 x1 (ix2 p q) = ∑ k : Fin 64, x0 (ix2 p k) * x1 (ix2 k q) := by
  unfold k2_pay1
  rw [shapeCast_self]
  exact matmul_zero_at dot_S5000x64_S64x10_S5000x10_1_0_0_1_n_n rfl rfl lhs2_0 lhs2_1 rhs2_0 rhs2_1 none _ _ p q

end Cert.KernelIdeal.Contraction

end
-- ==== Proof.Region0.lean ====
/-
  What matrix product 0 leaves in its output array, as one function of the arrays the region finds.

  The grid has 20 points; point t stages rows 5000·t … 5000·t + 4999 of the left operand, the whole right
  operand, and writes back rows 5000·t … 5000·t + 4999 of the output.  The body's stored block is the product of
  the two staged blocks, so block t of the output is block t of the whole product; the 20 blocks cover the
  output's 100000 rows, hence the output array ends as the whole product
  out[r, c] = Σ_k left[r, k] · right[k, c].
-/
import proofs.«102019_j49237505081833_1_alg».proof.Proof.Gen.KernelIdeal.Frame
import proofs.«102019_j49237505081833_1_alg».proof.Proof.Contraction

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Contraction

variable (V : (c : Dev nD) → (b : Ref sig .tc) → Buf (Elt Ideal) ((c : Thread nD τ).loc b))

theorem origin : (![0, 0] : Fin 2 → Nat) = fun _ => 0 := funext fun a => by fin_cases a <;> rfl

/-- The whole product of a left array and a right array, entry by entry. -/
def product (x : S100000x256.Idx → EReal) (w : S256x64.Idx → EReal) : S100000x64.Idx → EReal :=
  fun i => ∑ k : Fin 256, x (ix2 (⟨(i 0).val, (i 0).isLt⟩ : Fin 100000) k) * w (ix2 k (⟨(i 1).val, (i 1).isLt⟩ : Fin 64))

/-- The body's stored entry against the whole product: if the staged left block's row is the array's row and
    the staged right block is the right array, the stored entry is the product's entry. -/
theorem stored_entry (x0 : Vec Ideal S5000x256 .f32) (x1 : Vec Ideal S256x64 .f32)
    (X : S100000x256.Idx → EReal) (Wt : S256x64.Idx → EReal) (p : Fin 5000) (q : Fin 64) (i : S100000x64.Idx)
    (hx : ∀ k : Fin 256, x0 (ix2 p k) = X (ix2 (⟨(i 0).val, (i 0).isLt⟩ : Fin 100000) k))
    (hw : ∀ k : Fin 256, x1 (ix2 k q) = Wt (ix2 k (⟨(i 1).val, (i 1).isLt⟩ : Fin 64))) :
    k0_pay1 (F := Ideal) x0 x1 (ix2 p q) = product X Wt i := by
  rw [pay0_at]
  unfold product
  exact Finset.sum_congr rfl fun k _ => by rw [hx k, hw k]

/-- The printed index maps over the grid: the left operand's and the output's block row is the point's number,
    every other block index is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal)
      (product (V c (Pipeline.arrRef spec0 0)) (V c (Pipeline.arrRef spec0 1))) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x64) origin]
  obtain ⟨e0, e1, e2, e3, e4, e5⟩ := index_maps t
  funext j
  obtain ⟨p, q, rfl⟩ : ∃ (p : Fin 5000) (q : Fin 64), j = ix2 p q := ⟨j 0, j 1, eq_ix2 j⟩
  refine stored_entry (iblk0 V c 0 t) (iblk0 V c 1 t) _ _ p q _ (fun k => ?_) (fun k => ?_)
  · show V c (Pipeline.arrRef spec0 0) (((cfg0.win 0).blk t).view.emb (ix2 p k)) = _
    refine congrArg (V c (Pipeline.arrRef spec0 0)) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  · show V c (Pipeline.arrRef spec0 1) (((cfg0.win 1).blk t).view.emb (ix2 k q)) = _
    refine congrArg (V c (Pipeline.arrRef spec0 1)) ?_
    funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega

/-- An index of the output array is in point `t`'s block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Every index of the output array is in the block of the point numbered by its row divided by 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := index_maps t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the whole product of the arrays the region finds. -/
theorem final (c : Dev nD) :
    (dat0 V c).arrAt 2 cfg0.N = product (V c (Pipeline.arrRef spec0 0)) (V c (Pipeline.arrRef spec0 1)) :=
  (dat0 V c).arrAt_eq_of_cover 2 _ (fun t _ => flushed_eq V c t) covered

end Cert.KernelIdeal.Region0

end
-- ==== Proof.Region1.lean ====
/-
  What matrix product 1 leaves in its output array, as one function of the arrays the region finds.

  The grid has 20 points; point t stages rows 5000·t … 5000·t + 4999 of the left operand, the whole right
  operand, and writes back rows 5000·t … 5000·t + 4999 of the output.  The body's stored block is the product of
  the two staged blocks, so block t of the output is block t of the whole product; the 20 blocks cover the
  output's 100000 rows, hence the output array ends as the whole product
  out[r, c] = Σ_k left[r, k] · right[k, c].
-/
import proofs.«102019_j49237505081833_1_alg».proof.Proof.Gen.KernelIdeal.Frame
import proofs.«102019_j49237505081833_1_alg».proof.Proof.Contraction

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Contraction

variable (V : (c : Dev nD) → (b : Ref sig .tc) → Buf (Elt Ideal) ((c : Thread nD τ).loc b))

theorem origin : (![0, 0] : Fin 2 → Nat) = fun _ => 0 := funext fun a => by fin_cases a <;> rfl

/-- The whole product of a left array and a right array, entry by entry. -/
def product (x : S100000x64.Idx → EReal) (w : S64x64.Idx → EReal) : S100000x64.Idx → EReal :=
  fun i => ∑ k : Fin 64, x (ix2 (⟨(i 0).val, (i 0).isLt⟩ : Fin 100000) k) * w (ix2 k (⟨(i 1).val, (i 1).isLt⟩ : Fin 64))

/-- The body's stored entry against the whole product: if the staged left block's row is the array's row and
    the staged right block is the right array, the stored entry is the product's entry. -/
theorem stored_entry (x0 : Vec Ideal S5000x64 .f32) (x1 : Vec Ideal S64x64 .f32)
    (X : S100000x64.Idx → EReal) (Wt : S64x64.Idx → EReal) (p : Fin 5000) (q : Fin 64) (i : S100000x64.Idx)
    (hx : ∀ k : Fin 64, x0 (ix2 p k) = X (ix2 (⟨(i 0).val, (i 0).isLt⟩ : Fin 100000) k))
    (hw : ∀ k : Fin 64, x1 (ix2 k q) = Wt (ix2 k (⟨(i 1).val, (i 1).isLt⟩ : Fin 64))) :
    k1_pay1 (F := Ideal) x0 x1 (ix2 p q) = product X Wt i := by
  rw [pay1_at]
  unfold product
  exact Finset.sum_congr rfl fun k _ => by rw [hx k, hw k]

/-- The printed index maps over the grid: the left operand's and the output's block row is the point's number,
    every other block index is zero. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays the region finds. -/
theorem flushed_eq (c : Dev nD) (t : Fin cfg1.N) :
    (dat1 V c).flushed 2 t = ((cfg1.win 2).blk t).view.read (Elt Ideal)
      (product (V c (Pipeline.arrRef spec1 0)) (V c (Pipeline.arrRef spec1 1))) := by
  show (cfg1.win 2).cut (grid1.coords t) ((dat1 V c).after 2 t) = _
  rw [after1_2]
  unfold out1_2
  rw [View.canon_unit_zero origin]
  simp only [View.ld_unit_zero (S := S5000x64) origin, View.ld_unit_zero (S := S64x64) origin]
  obtain ⟨e0, e1, e2, e3, e4, e5⟩ := index_maps t
  funext j
  obtain ⟨p, q, rfl⟩ : ∃ (p : Fin 5000) (q : Fin 64), j = ix2 p q := ⟨j 0, j 1, eq_ix2 j⟩
  refine stored_entry (iblk1 V c 0 t) (iblk1 V c 1 t) _ _ p q _ (fun k => ?_) (fun k => ?_)
  · show V c (Pipeline.arrRef spec1 0) (((cfg1.win 0).blk t).view.emb (ix2 p k)) = _
    refine congrArg (V c (Pipeline.arrRef spec1 0)) ?_
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * k.val = k.val; omega
  · show V c (Pipeline.arrRef spec1 1) (((cfg1.win 1).blk t).view.emb (ix2 k q)) = _
    refine congrArg (V c (Pipeline.arrRef spec1 1)) ?_
    funext a; apply Fin.ext
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega

/-- An index of the output array is in point `t`'s block iff each coordinate is in the block's range. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v54).slice (win1_2.rect t)).set ↔ _
  rw [View.set_slice_whole, Rect.mem_set_unit]
  exact Iff.rfl

/-- Every index of the output array is in the block of the point numbered by its row divided by 5000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have ht : t.val = (i 0).val / 5000 := rfl
  obtain ⟨e0, e1, e2, e3, e4, e5⟩ := index_maps t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the region: the whole product of the arrays the region finds. -/
theorem final (c : Dev nD) :
    (dat1 V c).arrAt 2 cfg1.N = product (V c (Pipeline.arrRef spec1 0)) (V c (Pipeline.arrRef spec1 1)) :=
  (dat1 V c).arrAt_eq_of_cover 2 _ (fun t _ => flushed_eq V c t) covered

end Cert.KernelIdeal.Region1

end
-- ==== Proof.Region2.lean ====
/-
  What matrix product 2 leaves in its output array, as one function of the arrays the region finds.

  The grid has 20 points; point t stages rows 5000·t … 5000·t + 4999 of the left operand, the whole right
  operand, and writes back rows 5000·t … 5000·t + 4999 of the output.  The body's stored block is the product of
  the two staged blocks, so block t of the output is block t of the whole product; the 20 blocks cover the
  output's 100000 rows, hence the output array ends as the whole product
  out[r, c] = Σ_k left[r, k] · right[k, c].
-/
import proofs.«102019_j49237505081833_1_alg».proof.Proof.Gen.KernelIdeal.Frame
import proofs.«102019_j49237505081833_1_alg».proof.Proof.Contraction

set_option maxRecDepth 16384

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Contraction

variable (V : (c : Dev nD) → (b : Ref sig .tc) → Buf (Elt Ideal) ((c : Thread nD τ).loc b))

theorem origin : (![0, 0] : Fin 2 → Nat) = fun _ => 0 := funext fun a => by fin_cases a <;> rfl

/-- The whole product of a left array and a right array, entry by entry. -/
def product (x : S100000x64.Idx → EReal) (w : S64x10.Idx → EReal) : S100000x10.Idx → EReal :=
  fun i => ∑ k : Fin 64, x (ix2 (⟨(i 0).val, (i 0).isLt⟩ : Fin 100000) k) * w (ix2 k (⟨(i 1).val, (i 1).isLt⟩ : Fin 10))

/-- The body's stored entry against the whole product: if the staged left block's row is the array's row and
    the staged right block is the right array, the stored entry is the product's entry. -/
theorem stored_entry (x0 : Vec Ideal S5000x64 .f32) (x1 : Vec Ideal S64x10 .f32)
    (X : S100000x64.Idx → EReal) (Wt : S64x10.Idx → EReal) (p : Fin 5000) (q : Fin 10) (i : S100000x10.Idx)
    (hx : ∀ k : Fin 64, x0 (ix2 p k) = X (ix2 (⟨(i 0).val, (i 0).isLt⟩ : Fin 100000) k))
    (hw : ∀ k : Fin 64, x1 (ix2 k q) = Wt (ix2 k (⟨(i 1).val, (i 1).isLt⟩ : Fin 10))) :
    k2_pay1 (F := Ideal) x0 x1 (ix2 p q) = product X Wt i := by
  rw [pay2_at]
  unfold product
  exact Finset.sum_congr rfl fun k _ => by rw [hx k, hw k]

/-- The printed index maps over the grid: the left operand's and the output's block row is the point's number,
    every other block index is zero. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays the region finds. -/
theorem flushed_eq (c : Dev nD) (t : Fin cfg2.N) :
    (dat2 V c).flushed 2 t = ((cfg2.win 2).blk t).view.read (Elt Ideal)
      (product (V c (Pipeline.arrRef spec2 0)) (V c (Pipeline.arrRef spec2 1))) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x10) origin]
  obtain ⟨e0, e1, e2, e3, e4, e5⟩ := index_maps t
  funext j
  obtain ⟨p, q, rfl⟩ : ∃ (p : Fin 5000) (q : Fin 10), j = ix2 p q := ⟨j 0, j 1, eq_ix2 j⟩
  refine stored_entry (iblk2 V c 0 t) (iblk2 V c 1 t) _ _ p q _ (fun k => ?_) (fun k => ?_)
  · show V c (Pipeline.arrRef spec2 0) (((cfg2.win 0).blk t).view.emb (ix2 p k)) = _
    refine congrArg (V c (Pipeline.arrRef spec2 0)) ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  · show V c (Pipeline.arrRef spec2 1) (((cfg2.win 1).blk t).view.emb (ix2 k q)) = _
    refine congrArg (V c (Pipeline.arrRef spec2 1)) ?_
    funext a; apply Fin.ext
    match a with
    | ⟨0, _⟩ => show win2_1.index t (0 : Fin 2) * 64 + 1 * k.val = k.val; omega
    | ⟨1, _⟩ => show win2_1.index t (1 : Fin 2) * 10 + 1 * q.val = win2_2.index t (1 : Fin 2) * 10 + 1 * q.val; omega

/-- An index of the output array is in point `t`'s block iff each coordinate is in the block's range. -/
theorem mem_blk (t : Fin cfg2.N) (i : S100000x10.Idx) :
    i ∈ ((cfg2.win 2).blk t).view.set ↔ ∀ a : Fin 2, win2_2.index t a * S5000x10.size a ≤ (i a).val ∧ (i a).val < win2_2.index t a * S5000x10.size a + S5000x10.size a := by
  show i ∈ ((View.whole main_v104).slice (win2_2.rect t)).set ↔ _
  rw [View.set_slice_whole, Rect.mem_set_unit]
  exact Iff.rfl

/-- Every index of the output array is in the block of the point numbered by its row divided by 5000. -/
theorem covered (i : S100000x10.Idx) :
    ∃ t : Fin cfg2.N, (cfg2.win 2).flush t = true ∧ i ∈ ((cfg2.win 2).blk t).view.set := by
  have hi0 : (i 0).val < 100000 := (i 0).isLt
  have hi1 : (i 1).val < 10 := (i 1).isLt
  have hN : cfg2.N = 20 := N_2
  let t : Fin cfg2.N := ⟨(i 0).val / 5000, by rw [hN]; omega⟩
  have ht : t.val = (i 0).val / 5000 := rfl
  obtain ⟨e0, e1, e2, e3, e4, e5⟩ := index_maps t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 10 ≤ (i 1).val ∧ (i 1).val < win2_2.index t (1 : Fin 2) * 10 + 10; omega

/-- The output array after the region: the whole product of the arrays the region finds. -/
theorem final (c : Dev nD) :
    (dat2 V c).arrAt 2 cfg2.N = product (V c (Pipeline.arrRef spec2 0)) (V c (Pipeline.arrRef spec2 1)) :=
  (dat2 V c).arrAt_eq_of_cover 2 _ (fun t _ => flushed_eq V c t) covered

end Cert.KernelIdeal.Region2

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.Bridge.lean ====
/-
  The kernel's three matrix products against the reference's three contractions.

  Each of the kernel's products ends as out[r, c] = Σ_k left[r, k] · right[k, c].  On the extended reals the
  reference's dot_general of the same two arrays, contracting the left operand's second axis with the right
  operand's first, is that same sum over k — whatever order or grouping either side sums in.  So the two are
  equal as whole arrays, with no condition on the entries.
-/
import proofs.«102019_j49237505081833_1_alg».proof.Proof.Region0
import proofs.«102019_j49237505081833_1_alg».proof.Proof.Region1
import proofs.«102019_j49237505081833_1_alg».proof.Proof.Region2
import proofs.«102019_j49237505081833_1_alg».proof.Proof.Gen.ReferenceIdeal.Read
import proofs.«102019_j49237505081833_1_alg».proof.Proof.LibDotGeneralAt

set_option maxRecDepth 16384

noncomputable section

namespace Cert.KernelIdeal.Bridge

open Idealize.ShloMosaic Idealize.ShloMosaic.ValueIdx Idealize.SL.Sem
open Cert.KernelIdeal Cert.Lib.DotGeneralAt

/-- Product 0, written as a sum over the contracted axis, is the reference's contraction of the same two arrays. -/
theorem product0_eq (x : S100000x256.Idx → EReal) (w : S256x64.Idx → EReal) :
    Region0.product x w = Host.dotGeneral (F := Ideal) (φ₁ := .f32) (φ₂ := .f32) Cert.ReferenceIdeal.dot_S100000x256_S256x64_S100000x64_1_0_0_1_n_n none x w := by
  funext i
  obtain ⟨r, s, rfl⟩ : ∃ (r : Fin 100000) (s : Fin 64), i = ix2 r s := ⟨i 0, i 1, eq_ix2 i⟩
  unfold Region0.product
  exact (dotGeneral_at Cert.ReferenceIdeal.dot_S100000x256_S256x64_S100000x64_1_0_0_1_n_n rfl rfl Cert.ReferenceIdeal.Read.lhs_main_v4_0 Cert.ReferenceIdeal.Read.lhs_main_v4_1 Cert.ReferenceIdeal.Read.rhs_main_v4_0 Cert.ReferenceIdeal.Read.rhs_main_v4_1 none .single x w r s).symm

/-- Product 1, written as a sum over the contracted axis, is the reference's contraction of the same two arrays. -/
theorem product1_eq (x : S100000x64.Idx → EReal) (w : S64x64.Idx → EReal) :
    Region1.product x w = Host.dotGeneral (F := Ideal) (φ₁ := .f32) (φ₂ := .f32) Cert.ReferenceIdeal.dot_S100000x64_S64x64_S100000x64_1_0_0_1_n_n none x w := by
  funext i
  obtain ⟨r, s, rfl⟩ : ∃ (r : Fin 100000) (s : Fin 64), i = ix2 r s := ⟨i 0, i 1, eq_ix2 i⟩
  unfold Region1.product
  exact (dotGeneral_at Cert.ReferenceIdeal.dot_S100000x64_S64x64_S100000x64_1_0_0_1_n_n rfl rfl Cert.ReferenceIdeal.Read.lhs_main_v54_0 Cert.ReferenceIdeal.Read.lhs_main_v54_1 Cert.ReferenceIdeal.Read.rhs_main_v54_0 Cert.ReferenceIdeal.Read.rhs_main_v54_1 none .single x w r s).symm

/-- Product 2, written as a sum over the contracted axis, is the reference's contraction of the same two arrays. -/
theorem product2_eq (x : S100000x64.Idx → EReal) (w : S64x10.Idx → EReal) :
    Region2.product x w = Host.dotGeneral (F := Ideal) (φ₁ := .f32) (φ₂ := .f32) Cert.ReferenceIdeal.dot_S100000x64_S64x10_S100000x10_1_0_0_1_n_n none x w := by
  funext i
  obtain ⟨r, s, rfl⟩ : ∃ (r : Fin 100000) (s : Fin 10), i = ix2 r s := ⟨i 0, i 1, eq_ix2 i⟩
  unfold Region2.product
  exact (dotGeneral_at Cert.ReferenceIdeal.dot_S100000x64_S64x10_S100000x10_1_0_0_1_n_n rfl rfl Cert.ReferenceIdeal.Read.lhs_main_v104_0 Cert.ReferenceIdeal.Read.lhs_main_v104_1 Cert.ReferenceIdeal.Read.rhs_main_v104_0 Cert.ReferenceIdeal.Read.rhs_main_v104_1 none .single x w r s).symm

end Cert.KernelIdeal.Bridge

end
-- ==== Proof.KernelValue.lean ====
/-
  The idealized kernel's result array as a function of its argument arrays.

  The buffers' contents are followed from the launch to the return: the two edge rows cut out of the edge list;
  the first product of the features with the first weights; the first layer's aggregation, bias and rectifier;
  the second product; the second layer's; the third product; the last layer's aggregation and bias.  Each
  product ends as the whole matrix product of what it was given (the cover of its output by the 20 row
  blocks), which is the reference's contraction of the same arrays; each host stretch is the reference's own
  chain of operations applied to what it was given.  So at every boundary the buffer that carries the
  activations holds the reference's value at the same place, as a function of the launch contents of the
  arguments, and the result buffer ends at the reference's result.
-/
import proofs.«102019_j49237505081833_1_alg».proof.Proof.Gen.KernelIdeal.Frame
import proofs.«102019_j49237505081833_1_alg».proof.Proof.Gen.ReferenceIdeal.Read
import proofs.«102019_j49237505081833_1_alg».proof.Proof.HostKeep
import proofs.«102019_j49237505081833_1_alg».proof.Proof.Stretch0
import proofs.«102019_j49237505081833_1_alg».proof.Proof.Stretch1
import proofs.«102019_j49237505081833_1_alg».proof.Proof.Stretch2
import proofs.«102019_j49237505081833_1_alg».proof.Proof.Stretch3
import proofs.«102019_j49237505081833_1_alg».proof.Proof.Bridge

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostKeep Cert.KernelIdeal.Bridge

variable (m : (ℓ : Loc nD τ sig) → Buf (Elt Ideal) ℓ) (ρ : Dev nD → PrngReg) (c : Dev nD)

/-! ## What is carried unchanged -/

/-- Before the first product every argument array other than the edge list is as launched. -/
theorem at1 (b : Ref sig .tc) (hb : b = main_arg0 ∨ b = main_arg2 ∨ b = main_arg3 ∨ b = main_arg4 ∨ b = main_arg5 ∨ b = main_arg6 ∨ b = main_arg7) :
    W1 m ρ c (Proc.devRef .tc b) = m ((c : Thread nD τ).loc b) :=
  (keep0 (W0 m ρ c) b hb).trans rfl

/-- The first product writes only its output. -/
theorem at2 (b : Ref sig .tc) (hb : b = main_v1 ∨ b = main_v3 ∨ b = main_arg3 ∨ b = main_arg4 ∨ b = main_arg5 ∨ b = main_arg6 ∨ b = main_arg7) :
    W2 m ρ c (Proc.devRef .tc b) = W1 m ρ c (Proc.devRef .tc b) := by
  rcases hb with rfl | rfl | rfl | rfl | rfl | rfl | rfl <;> exact W2_of_ne m ρ c _ (by decide)

/-- The first layer's host side keeps the edge rows and the later layers' parameters. -/
theorem at4 (b : Ref sig .tc) (hb : b = main_v1 ∨ b = main_v3 ∨ b = main_arg4 ∨ b = main_arg5 ∨ b = main_arg6 ∨ b = main_arg7) :
    W4 m ρ c (Proc.devRef .tc b) = W2 m ρ c (Proc.devRef .tc b) :=
  (keep1_1 _ b hb).trans (keep1 _ b hb)

/-- The second product writes only its output. -/
theorem at5 (b : Ref sig .tc) (hb : b = main_v1 ∨ b = main_v3 ∨ b = main_arg5 ∨ b = main_arg6 ∨ b = main_arg7) :
    W5 m ρ c (Proc.devRef .tc b) = W4 m ρ c (Proc.devRef .tc b) := by
  rcases hb with rfl | rfl | rfl | rfl | rfl <;> exact W5_of_ne m ρ c _ (by decide)

/-- The second layer's host side keeps the edge rows and the last layer's parameters. -/
theorem at7 (b : Ref sig .tc) (hb : b = main_v1 ∨ b = main_v3 ∨ b = main_arg6 ∨ b = main_arg7) :
    W7 m ρ c (Proc.devRef .tc b) = W5 m ρ c (Proc.devRef .tc b) :=
  (keep2_1 _ b hb).trans (keep2 _ b hb)

/-- The third product writes only its output. -/
theorem at8 (b : Ref sig .tc) (hb : b = main_v1 ∨ b = main_v3 ∨ b = main_arg7) :
    W8 m ρ c (Proc.devRef .tc b) = W7 m ρ c (Proc.devRef .tc b) := by
  rcases hb with rfl | rfl | rfl <;> exact W8_of_ne m ρ c _ (by decide)

/-! ## The edge rows -/

theorem src1 : W1 m ρ c (Proc.devRef .tc main_v1) = Cert.ReferenceIdeal.Read.val_main_v1 (F := Ideal) (m ((c : Thread nD τ).loc main_arg1)) :=
  Stretch0.source_row (W0 m ρ c) _ rfl
theorem dst1 : W1 m ρ c (Proc.devRef .tc main_v3) = Cert.ReferenceIdeal.Read.val_main_v3 (F := Ideal) (m ((c : Thread nD τ).loc main_arg1)) :=
  Stretch0.destination_row (W0 m ρ c) _ rfl

/-! ## Layer 1 -/

/-- The first product's output: the reference's first contraction of the features and the first weights. -/
theorem product1 : W2 m ρ c (Proc.devRef .tc main_v4) = Cert.ReferenceIdeal.Read.val_main_v4 (F := Ideal) (m ((c : Thread nD τ).loc main_arg0)) (m ((c : Thread nD τ).loc main_arg2)) := by
  refine (W2_arr m ρ c 2).trans ((Region0.final (V1 m ρ) c).trans ?_)
  have e0 : V1 m ρ c (Pipeline.arrRef spec0 0) = (m ((c : Thread nD τ).loc main_arg0)) := at1 m ρ c main_arg0 (by decide)
  have e1 : V1 m ρ c (Pipeline.arrRef spec0 1) = (m ((c : Thread nD τ).loc main_arg2)) := at1 m ρ c main_arg2 (by decide)
  rw [e0, e1]
  exact product0_eq _ _

/-- The first layer's activations, as the second product finds them. -/
theorem layer1 : W4 m ρ c (Proc.devRef .tc main_v53) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) :=
  Stretch1.rectified (W3 m ρ c) _ _ _ _ <| Stretch1.layer (W2 m ρ c) _ _ _ _ (product1 m ρ c)
    ((at2 m ρ c main_v1 (by decide)).trans (src1 m ρ c))
    ((at2 m ρ c main_v3 (by decide)).trans (dst1 m ρ c))
    ((at2 m ρ c main_arg3 (by decide)).trans (at1 m ρ c main_arg3 (by decide)))

/-! ## Layer 2 -/

theorem product2 : W5 m ρ c (Proc.devRef .tc main_v54) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Region1.final (V4 m ρ) c).trans ?_)
  have e0 : V4 m ρ c (Pipeline.arrRef spec1 0) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) := layer1 m ρ c
  have e1 : V4 m ρ c (Pipeline.arrRef spec1 1) = (m ((c : Thread nD τ).loc main_arg4)) :=
    (at4 m ρ c main_arg4 (by decide)).trans ((at2 m ρ c main_arg4 (by decide)).trans (at1 m ρ c main_arg4 (by decide)))
  rw [e0, e1]
  exact product1_eq _ _

theorem layer2 : W7 m ρ c (Proc.devRef .tc main_v103) = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretch2.rectified (W6 m ρ c) _ _ _ _ _ _ <| Stretch2.layer (W5 m ρ c) _ _ _ _ _ _ (product2 m ρ c)
    ((at5 m ρ c main_v1 (by decide)).trans ((at4 m ρ c main_v1 (by decide)).trans ((at2 m ρ c main_v1 (by decide)).trans (src1 m ρ c))))
    ((at5 m ρ c main_v3 (by decide)).trans ((at4 m ρ c main_v3 (by decide)).trans ((at2 m ρ c main_v3 (by decide)).trans (dst1 m ρ c))))
    ((at5 m ρ c main_arg5 (by decide)).trans ((at4 m ρ c main_arg5 (by decide)).trans ((at2 m ρ c main_arg5 (by decide)).trans (at1 m ρ c main_arg5 (by decide)))))

/-! ## Layer 3 -/

theorem product3 : W8 m ρ c (Proc.devRef .tc main_v104) = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((Region2.final (V7 m ρ) c).trans ?_)
  have e0 : V7 m ρ c (Pipeline.arrRef spec2 0) = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := layer2 m ρ c
  have e1 : V7 m ρ c (Pipeline.arrRef spec2 1) = (m ((c : Thread nD τ).loc main_arg6)) :=
    (at7 m ρ c main_arg6 (by decide)).trans ((at5 m ρ c main_arg6 (by decide)).trans ((at4 m ρ c main_arg6 (by decide)).trans
      ((at2 m ρ c main_arg6 (by decide)).trans (at1 m ρ c main_arg6 (by decide)))))
  rw [e0, e1]
  exact product2_eq _ _

/-- The result buffer at the return: the reference's result of the launch contents of the arguments. -/
theorem result : W9 m ρ c (Proc.devRef .tc main_v152) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stretch3.layer (W8 m ρ c) _ _ _ _ _ _ _ _ (product3 m ρ c)
    ((at8 m ρ c main_v1 (by decide)).trans ((at7 m ρ c main_v1 (by decide)).trans ((at5 m ρ c main_v1 (by decide)).trans
      ((at4 m ρ c main_v1 (by decide)).trans ((at2 m ρ c main_v1 (by decide)).trans (src1 m ρ c))))))
    ((at8 m ρ c main_v3 (by decide)).trans ((at7 m ρ c main_v3 (by decide)).trans ((at5 m ρ c main_v3 (by decide)).trans
      ((at4 m ρ c main_v3 (by decide)).trans ((at2 m ρ c main_v3 (by decide)).trans (dst1 m ρ c))))))
    ((at8 m ρ c main_arg7 (by decide)).trans ((at7 m ρ c main_arg7 (by decide)).trans ((at5 m ρ c main_arg7 (by decide)).trans
      ((at4 m ρ c main_arg7 (by decide)).trans ((at2 m ρ c main_arg7 (by decide)).trans (at1 m ρ c main_arg7 (by decide)))))))

end Cert.KernelIdeal.KernelValue

end
-- ==== Proof.lean ====
/-
  Three graph-convolution layers: row-tiled matrix products on the device, the sparse aggregation on the host.

  Each layer computes h = x · W on the device in 20 blocks of 5000 rows (operands rounded to bf16 on the way in,
  accumulated in f32), then on the host the symmetric degree normalisation, the weighted sum over incoming
  edges, the self loop and the bias (and, for the first two layers, the rectifier).  The reference computes
  h = x · W as one host contraction and then applies the same host operations.

  On the extended reals a change of float format is the identity and a matrix product is the plain sum
  Σ_k x[r, k] · W[k, c] however it is tiled or ordered, so each device product equals the reference's
  contraction of the same arrays, entry by entry, with no condition on the entries (no distributivity or
  cancellation is used, so finiteness of the inputs is never needed).  Everything else is the same chain of
  host operations on both sides, applied to equal arrays.  Hence the two programs end with the same result.

  The three frames: the kernel's two programs terminate without a fault and leave their arguments as launched
  (the device products only write their own outputs); the reference is a straight line of host operations.
  The idealization rewrote nothing in the kernel, so there is nothing to preserve beyond the text itself.
-/
import proofs.«102019_j49237505081833_1_alg».proof.Defs
import proofs.«102019_j49237505081833_1_alg».proof.Proof.Gen.Kernel
import proofs.«102019_j49237505081833_1_alg».proof.Proof.Gen.Kernel.Skeleton
import proofs.«102019_j49237505081833_1_alg».proof.Proof.Gen.Kernel.Launch
import proofs.«102019_j49237505081833_1_alg».proof.Proof.Gen.Kernel.Points
import proofs.«102019_j49237505081833_1_alg».proof.Proof.Gen.Kernel.Frame
import proofs.«102019_j49237505081833_1_alg».proof.Proof.Gen.KernelIdeal
import proofs.«102019_j49237505081833_1_alg».proof.Proof.Gen.KernelIdeal.Skeleton
import proofs.«102019_j49237505081833_1_alg».proof.Proof.Gen.KernelIdeal.Launch
import proofs.«102019_j49237505081833_1_alg».proof.Proof.Gen.KernelIdeal.Points
import proofs.«102019_j49237505081833_1_alg».proof.Proof.Gen.KernelIdeal.Frame
import proofs.«102019_j49237505081833_1_alg».proof.Proof.Gen.ReferenceIdeal
import proofs.«102019_j49237505081833_1_alg».proof.Proof.Gen.Pre_finite_inputs
import proofs.«102019_j49237505081833_1_alg».proof.Proof.Gen.ReferenceIdeal.Run
import proofs.«102019_j49237505081833_1_alg».proof.Proof.Gen.ReferenceIdeal.Read
import proofs.«102019_j49237505081833_1_alg».proof.Proof.KernelRun
import proofs.«102019_j49237505081833_1_alg».proof.Proof.KernelValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the reference's result of the kernel's launch arguments: the kernel by
    following its buffers through the three products and the host stretches between them, the reference by its
    own run, read at arguments that agree with the kernel's. -/
theorem algebraic : Cert.algebraic_KernelIdeal_ReferenceIdeal := by
  intro m ρ m' ρ' _ hagree
  refine ⟨fun c => Cert.ReferenceIdeal.Read.val_main_v152 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result m ρ c), (h c).2⟩)
      (Cert.KernelIdeal.RunValue.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v152_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
